-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1280000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S100000 : Shape := ⟨1, ![100000]⟩
abbrev S1280000x1 : Shape := ⟨2, ![1280000, 1]⟩
abbrev S100000x1 : Shape := ⟨2, ![100000, 1]⟩
abbrev S1280000x64 : Shape := ⟨2, ![1280000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 49
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .f32⟩
  | .hbm, ⟨13, _⟩ => ⟨S1280000, .f32⟩
  | .hbm, ⟨14, _⟩ => ⟨S_, .f32⟩
  | .hbm, ⟨15, _⟩ => ⟨S100000, .f32⟩
  | .hbm, ⟨16, _⟩ => ⟨S1280000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1280000, .i32⟩
  | .hbm, ⟨21, _⟩ => ⟨S1280000, .i1⟩
  | .hbm, ⟨22, _⟩ => ⟨S_, .i32⟩
  | .hbm, ⟨23, _⟩ => ⟨S1280000, .i32⟩
  | .hbm, ⟨24, _⟩ => ⟨S1280000, .i32⟩
  | .hbm, ⟨25, _⟩ => ⟨S1280000, .i32⟩
  | .hbm, ⟨26, _⟩ => ⟨S1280000x1, .i32⟩
  | .hbm, ⟨27, _⟩ => ⟨S1280000x64, .f32⟩
  | .hbm, ⟨28, _⟩ => ⟨S_, .f32⟩
  | .hbm, ⟨29, _⟩ => ⟨S100000x64, .f32⟩
  | .hbm, ⟨30, _⟩ => ⟨S1280000x1, .i32⟩
  | .hbm, ⟨31, _⟩ => ⟨S100000x64, .f32⟩
  | .hbm, ⟨32, _⟩ => ⟨S1x64, .f32⟩
  | .hbm, ⟨33, _⟩ => ⟨S100000x64, .f32⟩
  | .hbm, ⟨34, _⟩ => ⟨S_, .i32⟩
  | .hbm, ⟨35, _⟩ => ⟨S1280000, .i32⟩
  | .hbm, ⟨36, _⟩ => ⟨S1280000, .i1⟩
  | .hbm, ⟨37, _⟩ => ⟨S_, .i32⟩
  | .hbm, ⟨38, _⟩ => ⟨S1280000, .i32⟩
  | .hbm, ⟨39, _⟩ => ⟨S1280000, .i32⟩
  | .hbm, ⟨40, _⟩ => ⟨S1280000, .i32⟩
  | .hbm, ⟨41, _⟩ => ⟨S1280000x1, .i32⟩
  | .hbm, ⟨42, _⟩ => ⟨S1280000x64, .f32⟩
  | .hbm, ⟨43, _⟩ => ⟨S_, .f32⟩
  | .hbm, ⟨44, _⟩ => ⟨S100000x64, .f32⟩
  | .hbm, ⟨45, _⟩ => ⟨S1280000x1, .i32⟩
  | .hbm, ⟨46, _⟩ => ⟨S100000x64, .f32⟩
  | .hbm, ⟨47, _⟩ => ⟨S1x64, .f32⟩
  | .hbm, ⟨48, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  transposes_S64x64_p1_0_S64x64 : S64x64.Transposes [1, 0] S64x64
  broadcasts_S1x64_S5000x64 : S1x64.Broadcasts S5000x64
  scatter_S100000_S1280000x1_S1280000_n_0_0_1_wf : ScatterDims.WF S100000 S1280000x1 S1280000 [] [0] [0] 1
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x1280000 : Shape := ⟨2, ![1, 1280000]⟩
abbrev S1280000 : Shape := ⟨1, ![1280000]⟩
abbrev S_ : Shape := ⟨0, ![]⟩
abbrev S1280000x1 : Shape := ⟨2, ![1280000, 1]⟩
abbrev S1280000x64 : Shape := ⟨2, ![1280000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1280000, .i32⟩
  | .hbm, ⟨9, _⟩ => ⟨S1280000, .i32⟩
  | .hbm, ⟨10, _⟩ => ⟨S1x1280000, .i32⟩
  | .hbm, ⟨11, _⟩ => ⟨S1280000, .i32⟩
  | .hbm, ⟨12, _⟩ => ⟨S_, .i32⟩
  | .hbm, ⟨13, _⟩ => ⟨S1280000, .i32⟩
  | .hbm, ⟨14, _⟩ => ⟨S1280000, .i1⟩
  | .hbm, ⟨15, _⟩ => ⟨S_, .i32⟩
  | .hbm, ⟨16, _⟩ => ⟨S1280000, .i32⟩
  | .hbm, ⟨17, _⟩ => ⟨S1280000, .i32⟩
  | .hbm, ⟨18, _⟩ => ⟨S1280000, .i32⟩
  | .hbm, ⟨19, _⟩ => ⟨S1280000x1, .i32⟩
  | .hbm, ⟨20, _⟩ => ⟨S1280000x64, .f32⟩
  | .hbm, ⟨21, _⟩ => ⟨S_, .f32⟩
  | .hbm, ⟨22, _⟩ => ⟨S100000x64, .f32⟩
  | .hbm, ⟨23, _⟩ => ⟨S1280000x1, .i32⟩
  | .hbm, ⟨24, _⟩ => ⟨S100000x64, .f32⟩
  | .hbm, ⟨25, _⟩ => ⟨S_, .f32⟩
  | .hbm, ⟨26, _⟩ => ⟨S1280000, .f32⟩
  | .hbm, ⟨27, _⟩ => ⟨S_, .f32⟩
  | .hbm, ⟨28, _⟩ => ⟨S100000, .f32⟩
  | .hbm, ⟨29, _⟩ => ⟨S1280000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1280000, .i32⟩
  | .hbm, ⟨50, _⟩ => ⟨S1280000, .i1⟩
  | .hbm, ⟨51, _⟩ => ⟨S_, .i32⟩
  | .hbm, ⟨52, _⟩ => ⟨S1280000, .i32⟩
  | .hbm, ⟨53, _⟩ => ⟨S1280000, .i32⟩
  | .hbm, ⟨54, _⟩ => ⟨S1280000, .i32⟩
  | .hbm, ⟨55, _⟩ => ⟨S1280000x1, .i32⟩
  | .hbm, ⟨56, _⟩ => ⟨S1280000x64, .f32⟩
  | .hbm, ⟨57, _⟩ => ⟨S_, .f32⟩
  | .hbm, ⟨58, _⟩ => ⟨S100000x64, .f32⟩
  | .hbm, ⟨59, _⟩ => ⟨S1280000x1, .i32⟩
  | .hbm, ⟨60, _⟩ => ⟨S100000x64, .f32⟩
  | .hbm, ⟨61, _⟩ => ⟨S_, .f32⟩
  | .hbm, ⟨62, _⟩ => ⟨S1280000, .f32⟩
  | .hbm, ⟨63, _⟩ => ⟨S_, .f32⟩
  | .hbm, ⟨64, _⟩ => ⟨S100000, .f32⟩
  | .hbm, ⟨65, _⟩ => ⟨S1280000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S1280000_S1280000x1_0 : S1280000.BroadcastsInDim S1280000x1 (![0] : Fin 1 → Fin S1280000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  scatter_S100000_S1280000x1_S1280000_n_0_0_1_wf : ScatterDims.WF S100000 S1280000x1 S1280000 [] [0] [0] 1
  dot_S100000x64_S64x64_S100000x64_1_0_0_1_n_n_wf : DotDims.WF S100000x64 S64x64 S100000x64 [1] [0] [0] [1] [] []

variable [Facts₀]

def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.NamedRun.lean ====
/-
  The kernel program's run with its result array named.

  The program is two tiled regions among stretches of host operations. Its buffers' contents at the four segment
  boundaries are a fold from the launch memory: after the first stretch of host operations, after the first region (its
  output array at what the grid points wrote back, everything else as entered), after the second stretch, after the
  second region. Every execution ends with every buffer that outlives the call at the last boundary's contents. The
  frame statement keeps of this only that the eight argument arrays end as launched; here the same run is stated once
  more with one further conjunct, the result array at the last boundary's contents, which is what the value of the
  program is read from.
-/
import proofs.«110240_j51092930953818_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from `m` terminates without a fault; the result array ends at the last boundary's
    contents and the argument arrays end as launched. -/
theorem run : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.NamedRun

end
-- ==== Proof.MeanLayer.lean ====
/-
  One mean-aggregation layer of a graph network, entry by entry, on the extended reals.

  A node `r` has the sum `agg r` of its in-neighbours' feature rows and their number `cnt r`. The layer's output
  row is the neighbours' mean — the sum divided by `max (cnt r) 1`, so a node without in-neighbours gets its (zero) sum —
  times a weight matrix, plus the node's own row `x r` times a second weight matrix, plus a bias. Both weight matrices
  are applied transposed: entry `(r, c)` contracts a row of the features with ROW `c` of the weights.

      layer agg cnt x wl b wr r c = (Σₖ (agg r k / max (cnt r) 1) · wl c k  +  Σₖ x r k · wr c k)  +  b c

  The three summands may be added in either order: addition of extended reals is commutative and associative with no
  side condition, so adding the bias before the second sum gives the same entry (`layer_bias_first`). Nothing else is
  used, and no finiteness. The number of rows `n` is a parameter, so that the same function describes a block of rows
  and the whole array; `layer_congr` moves between the two when the rows' data agree.
-/
import Idealize.ShloMosaic.PureOps.Ideal
import Idealize.ShloMosaic.Lib.ValueIdx

noncomputable section

open scoped BigOperators

namespace Cert.MeanLayer

open Idealize.ShloMosaic

/-- The float `1.0`, as the extended real its pattern denotes (kept as the pattern: both programs carry this word). -/
abbrev one : EReal := Ideal.ofBits .f32 0x3F800000#32
/-- The float `0.0`, likewise. -/
abbrev zero : EReal := Ideal.ofBits .f32 0x00000000#32

/-- Entry `(r, c)` of one layer: the neighbours' mean through `wl`, the node's own row through `wr`, the bias. -/
def layer {n : Nat} (agg : Fin n → Fin 64 → EReal) (cnt : Fin n → EReal) (x : Fin n → Fin 64 → EReal)
    (wl : Fin 64 → Fin 64 → EReal) (b : Fin 64 → EReal) (wr : Fin 64 → Fin 64 → EReal) (r : Fin n) (c : Fin 64) : EReal :=
  (∑ k : Fin 64, Ideal.div (agg r k) (max (cnt r) one) * wl c k + ∑ k : Fin 64, x r k * wr c k) + b c

/-- Adding the bias to the first sum before the second sum is added gives the same entry. -/
theorem layer_bias_first {n : Nat} (agg : Fin n → Fin 64 → EReal) (cnt : Fin n → EReal) (x : Fin n → Fin 64 → EReal)
    (wl : Fin 64 → Fin 64 → EReal) (b : Fin 64 → EReal) (wr : Fin 64 → Fin 64 → EReal) (r : Fin n) (c : Fin 64) :
    (∑ k : Fin 64, Ideal.div (agg r k) (max (cnt r) one) * wl c k + b c) + ∑ k : Fin 64, x r k * wr c k
      = layer agg cnt x wl b wr r c :=
  add_right_comm _ _ _

/-- The entry depends on row `r` of the node data only: two sets of node data, possibly of different heights, whose
    rows `r` and `r'` agree give the same entry. -/
theorem layer_congr {n n' : Nat} {agg : Fin n → Fin 64 → EReal} {cnt : Fin n → EReal} {x : Fin n → Fin 64 → EReal}
    {agg' : Fin n' → Fin 64 → EReal} {cnt' : Fin n' → EReal} {x' : Fin n' → Fin 64 → EReal}
    (wl : Fin 64 → Fin 64 → EReal) (b : Fin 64 → EReal) (wr : Fin 64 → Fin 64 → EReal) {r : Fin n} {r' : Fin n'}
    (hagg : ∀ k, agg r k = agg' r' k) (hcnt : cnt r = cnt' r') (hx : ∀ k, x r k = x' r' k) (c : Fin 64) :
    layer agg cnt x wl b wr r c = layer agg' cnt' x' wl b wr r' c := by
  unfold layer
  rw [hcnt]
  simp only [hagg, hx]

/-- The entry depends on row `r` of the node data, row `c` of the two weight matrices and entry `c` of the bias only. -/
theorem layer_ext {n : Nat} {agg agg' : Fin n → Fin 64 → EReal} {cnt cnt' : Fin n → EReal} {x x' : Fin n → Fin 64 → EReal}
    {wl wl' : Fin 64 → Fin 64 → EReal} {b b' : Fin 64 → EReal} {wr wr' : Fin 64 → Fin 64 → EReal} (r : Fin n) (c : Fin 64)
    (hagg : ∀ k, agg r k = agg' r k) (hcnt : cnt r = cnt' r) (hx : ∀ k, x r k = x' r k)
    (hwl : ∀ k, wl c k = wl' c k) (hb : b c = b' c) (hwr : ∀ k, wr c k = wr' c k) :
    layer agg cnt x wl b wr r c = layer agg' cnt' x' wl' b' wr' r c := by
  unfold layer
  rw [hcnt, hb]
  simp only [hagg, hx, hwl, hwr]

end Cert.MeanLayer

end
-- ==== Proof.Blocks.lean ====
/-
  From blocks to the array: what a tiled region leaves in its output array, as one function of the arrays it was
  entered with.

  Each of the two regions runs its body at 20 grid points. At point `t` the body sees rows `5000·t … 5000·t + 4999` of the
  three node arrays (the neighbour sums, the neighbour counts kept as a column, the node features), the two weight
  matrices and the bias row whole, and writes rows `5000·t … 5000·t + 4999` of the output. An entry of the body's result
  depends only on its own row of the node blocks (`MeanLayer.layer`), and row `p` of block `t` IS row `5000·t + p` of the
  array; so what point `t` writes back is block `t` of ONE function of the whole arrays (`rows`). The 20 blocks tile the
  100000 rows (row `r` lies in block `r / 5000`), hence the output array ends holding that function everywhere.

  Everything is stated for arbitrary contents `V` of the buffers at the region's entry, and for a body whose stored value
  at an entry is `f` of the layer's entry (`hpay`): the two regions differ only in `f` and in which buffers they read.
-/
import proofs.«110240_j51092930953818_1_alg».proof.Proof.Gen.KernelIdeal.Frame
import proofs.«110240_j51092930953818_1_alg».proof.Proof.MeanLayer
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.MeanLayer

/-- The layer over whole arrays, entry by entry, followed by `f`: the node arrays `AGG`, `X` of 100000 rows, the counts
    as a column, the weights, the bias as a row. -/
def rows (f : EReal → EReal) (AGG : S100000x64.Idx → EReal) (CNT : S100000x1.Idx → EReal) (X : S100000x64.Idx → EReal)
    (WL : S64x64.Idx → EReal) (B : S1x64.Idx → EReal) (WR : S64x64.Idx → EReal) : S100000x64.Idx → EReal :=
  fun i => f (layer (fun r k => AGG (ix2 r k)) (fun r => CNT (ix2 r (0 : Fin 1))) (fun r k => X (ix2 r k))
    (fun a k => WL (ix2 a k)) (fun c => B (ix2 (0 : Fin 1) c)) (fun a k => WR (ix2 a k)) (i 0) (i 1))

theorem rows_apply (f : EReal → EReal) (AGG : S100000x64.Idx → EReal) (CNT : S100000x1.Idx → EReal) (X : S100000x64.Idx → EReal)
    (WL : S64x64.Idx → EReal) (B : S1x64.Idx → EReal) (WR : S64x64.Idx → EReal) (r : Fin 100000) (c : Fin 64) :
    rows f AGG CNT X WL B WR (ix2 r c) = f (layer (fun r k => AGG (ix2 r k)) (fun r => CNT (ix2 r (0 : Fin 1))) (fun r k => X (ix2 r k))
      (fun a k => WL (ix2 a k)) (fun c => B (ix2 (0 : Fin 1) c)) (fun a k => WR (ix2 a k)) r c) := rfl

/-- The body's stored value at an entry, as a hypothesis on a payload: `f` of the layer's entry over the loaded blocks. -/
def PayIs (f : EReal → EReal) (pay : FVec Ideal S5000x64 .f32 → FVec Ideal S5000x1 .f32 → FVec Ideal S5000x64 .f32 →
    FVec Ideal S64x64 .f32 → FVec Ideal S64x64 .f32 → FVec Ideal S1x64 .f32 → FVec Ideal S5000x64 .f32) : Prop :=
  ∀ (x0 : FVec Ideal S5000x64 .f32) (x1 : FVec Ideal S5000x1 .f32) (x2 : FVec Ideal S5000x64 .f32)
    (x3 : FVec Ideal S64x64 .f32) (x5 : FVec Ideal S64x64 .f32) (x4 : FVec Ideal S1x64 .f32) (p : Fin 5000) (q : Fin 64),
    pay x0 x1 x2 x3 x5 x4 (ix2 p q)
      = f (layer (fun r k => x0 (ix2 r k)) (fun r => x1 (ix2 r (0 : Fin 1))) (fun r k => x2 (ix2 r k))
          (fun a k => x3 (ix2 a k)) (fun c => x4 (ix2 (0 : Fin 1) c)) (fun a k => x5 (ix2 a k)) p q)

/-- ONE ENTRY OF ONE BLOCK: if row `p` of the node blocks is row `r` of the node arrays and the weight and bias blocks are
    the whole matrices, the body's value at `(p, q)` is the whole-array function at `(r, q)`. -/
theorem block_entry {f : EReal → EReal} {pay} (hpay : PayIs f pay)
    (X0 : FVec Ideal S5000x64 .f32) (X1 : FVec Ideal S5000x1 .f32) (X2 : FVec Ideal S5000x64 .f32)
    (X3 : FVec Ideal S64x64 .f32) (X4 : FVec Ideal S1x64 .f32) (X5 : FVec Ideal S64x64 .f32)
    (A0 : S100000x64.Idx → EReal) (A1 : S100000x1.Idx → EReal) (A2 : S100000x64.Idx → EReal)
    (A3 : S64x64.Idx → EReal) (A4 : S1x64.Idx → EReal) (A5 : S64x64.Idx → EReal)
    (p : Fin 5000) (q : Fin 64) (r : Fin 100000)
    (h0 : ∀ k : Fin 64, X0 (ix2 p k) = A0 (ix2 r k)) (h1 : X1 (ix2 p (0 : Fin 1)) = A1 (ix2 r (0 : Fin 1)))
    (h2 : ∀ k : Fin 64, X2 (ix2 p k) = A2 (ix2 r k)) (h3 : ∀ y, X3 y = A3 y) (h4 : ∀ y, X4 y = A4 y) (h5 : ∀ y, X5 y = A5 y) :
    pay X0 X1 X2 X3 X5 X4 (ix2 p q) = rows f A0 A1 A2 A3 A4 A5 (ix2 r q) := by
  rw [hpay, rows_apply]
  refine congrArg f ?_
  have e3 : X3 = A3 := funext h3
  have e4 : X4 = A4 := funext h4
  have e5 : X5 = A5 := funext h5
  subst e3 e4 e5
  exact layer_congr _ _ _ h0 h1 h2 q

/-! ## Region 0 -/

section Region0
variable (V : (c : Dev nD) → (b : Ref sig .tc) → Buf (Elt Ideal) ((c : Thread nD τ).loc b))

theorem zeros0 : (![0, 0] : Fin 2 → Nat) = fun _ => 0 := funext fun a => by fin_cases a <;> rfl

/-- The printed index maps over the 20 grid points: the node windows and the output sit at block `(t, 0)`, the weight
    and bias windows at block `(0, 0)`. -/
theorem index0 : ∀ t : Fin cfg0.N,
    win0_6.index t (0 : Fin 2) = t.val ∧ win0_6.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 ∧ t.val < 20 :=
  (by decide +kernel : ∀ t : Fin grid0.N, _)

/-- Every one of the 20 row blocks is some point's. -/
theorem onto0 : ∀ q0 : Fin 20, ∃ t : Fin cfg0.N, t.val = q0.val :=
  (by decide +kernel : ∀ q0 : Fin 20, ∃ t : Fin grid0.N, t.val = q0.val)

/-- WHAT POINT `t` WRITES BACK is block `t` of the whole-array function of the arrays the region was entered with. -/
theorem flushed0_eq {f : EReal → EReal} (hpay : PayIs f (k0_pay1 (F := Ideal))) (c : Dev nD) (t : Fin cfg0.N) :
    (dat0 V c).flushed 6 t = ((cfg0.win 6).blk t).view.read (Elt Ideal)
      (rows f (V c main_v18) (V c main_v8) (V c main_arg0) (V c main_arg2) (V c main_v19) (V c main_arg4)) := by
  show (cfg0.win 6).cut (grid0.coords t) ((dat0 V c).after 6 t) = _
  rw [after0_6]
  unfold out0_6
  rw [View.canon_unit_zero zeros0]
  simp only [View.ld_unit_zero (S := S5000x64) zeros0, View.ld_unit_zero (S := S5000x1) zeros0,
    View.ld_unit_zero (S := S64x64) zeros0, View.ld_unit_zero (S := S1x64) zeros0]
  obtain ⟨e60, e61, e00, e01, e10, e11, e20, e21, e30, e31, e40, e41, e50, e51, ht⟩ := index0 t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hq : q.val < 64 := q.isLt
  let r : Fin 100000 := ⟨t.val * 5000 + p.val, by omega⟩
  have hout : ((cfg0.win 6).blk t).view.emb (ix2 p q) = ix2 r q := by
    funext a; apply Fin.ext
    match a with
    | ⟨0, _⟩ => show win0_6.index t (0 : Fin 2) * 5000 + 1 * p.val = t.val * 5000 + p.val; omega
    | ⟨1, _⟩ => show win0_6.index t (1 : Fin 2) * 64 + 1 * q.val = q.val; omega
  show k0_pay1 (F := Ideal) (iblk0 V c 0 t) (iblk0 V c 1 t) (iblk0 V c 2 t) (iblk0 V c 3 t) (iblk0 V c 5 t) (iblk0 V c 4 t) (ix2 p q)
    = rows f (V c main_v18) (V c main_v8) (V c main_arg0) (V c main_arg2) (V c main_v19) (V c main_arg4) (((cfg0.win 6).blk t).view.emb (ix2 p q))
  rw [hout]
  refine block_entry hpay (iblk0 V c 0 t) (iblk0 V c 1 t) (iblk0 V c 2 t) (iblk0 V c 3 t) (iblk0 V c 4 t) (iblk0 V c 5 t)
    (V c main_v18) (V c main_v8) (V c main_arg0) (V c main_arg2) (V c main_v19) (V c main_arg4) p q r ?_ ?_ ?_ ?_ ?_ ?_
  · intro k
    have hk : k.val < 64 := k.isLt
    show V c main_v18 (((cfg0.win 0).blk t).view.emb (ix2 p k)) = V c main_v18 (ix2 r k)
    refine congrArg (V c main_v18) ?_
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  · show V c main_v8 (((cfg0.win 1).blk t).view.emb (ix2 p (0 : Fin 1))) = V c main_v8 (ix2 r (0 : Fin 1))
    refine congrArg (V c main_v8) ?_
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  · intro k
    have hk : k.val < 64 := k.isLt
    show V c main_arg0 (((cfg0.win 2).blk t).view.emb (ix2 p k)) = V c main_arg0 (ix2 r k)
    refine congrArg (V c main_arg0) ?_
    funext a; apply Fin.ext
    match a with
    | ⟨0, _⟩ => show win0_2.index t (0 : Fin 2) * 5000 + 1 * p.val = t.val * 5000 + p.val; omega
    | ⟨1, _⟩ => show win0_2.index t (1 : Fin 2) * 64 + 1 * k.val = k.val; omega
  · intro y
    show V c main_arg2 (((cfg0.win 3).blk t).view.emb y) = V c main_arg2 y
    refine congrArg (V c main_arg2) ?_
    funext a; apply Fin.ext
    match a with
    | ⟨0, _⟩ => show win0_3.index t (0 : Fin 2) * 64 + 1 * (y 0).val = (y 0).val; omega
    | ⟨1, _⟩ => show win0_3.index t (1 : Fin 2) * 64 + 1 * (y 1).val = (y 1).val; omega
  · intro y
    show V c main_v19 (((cfg0.win 4).blk t).view.emb y) = V c main_v19 y
    refine congrArg (V c main_v19) ?_
    funext a; apply Fin.ext
    match a with
    | ⟨0, _⟩ => show win0_4.index t (0 : Fin 2) * 1 + 1 * (y 0).val = (y 0).val; omega
    | ⟨1, _⟩ => show win0_4.index t (1 : Fin 2) * 64 + 1 * (y 1).val = (y 1).val; omega
  · intro y
    show V c main_arg4 (((cfg0.win 5).blk t).view.emb y) = V c main_arg4 y
    refine congrArg (V c main_arg4) ?_
    funext a; apply Fin.ext
    match a with
    | ⟨0, _⟩ => show win0_5.index t (0 : Fin 2) * 64 + 1 * (y 0).val = (y 0).val; omega
    | ⟨1, _⟩ => show win0_5.index t (1 : Fin 2) * 64 + 1 * (y 1).val = (y 1).val; omega

/-- An index of the output array is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v20).slice (win0_6.rect t)).set ↔ _
  rw [View.set_slice_whole, Rect.mem_set_unit]
  exact Iff.rfl

/-- THE COVER: row `r` of the output lies in the block of point `r / 5000`. -/
theorem cover0 (i : S100000x64.Idx) : ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, ht⟩ := onto0 ⟨(i 0).val / 5000, by omega⟩
  have ht' : t.val = (i 0).val / 5000 := ht
  obtain ⟨e60, e61, -⟩ := index0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE OUTPUT ARRAY after the region: the whole-array function of the arrays it was entered with. -/
theorem final0 {f : EReal → EReal} (hpay : PayIs f (k0_pay1 (F := Ideal))) (c : Dev nD) :
    (dat0 V c).arrAt 6 cfg0.N = rows f (V c main_v18) (V c main_v8) (V c main_arg0) (V c main_arg2) (V c main_v19) (V c main_arg4) :=
  (dat0 V c).arrAt_eq_of_cover 6 _ (fun t _ => flushed0_eq V hpay c t) cover0

end Region0

/-! ## Region 1 -/

section Region1
variable (V : (c : Dev nD) → (b : Ref sig .tc) → Buf (Elt Ideal) ((c : Thread nD τ).loc b))

theorem zeros1 : (![0, 0] : Fin 2 → Nat) = fun _ => 0 := funext fun a => by fin_cases a <;> rfl

/-- The printed index maps over the 20 grid points: the node windows and the output sit at block `(t, 0)`, the weight
    and bias windows at block `(0, 0)`. -/
theorem index1 : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 ∧ t.val < 20 :=
  (by decide +kernel : ∀ t : Fin grid1.N, _)

/-- Every one of the 20 row blocks is some point's. -/
theorem onto1 : ∀ q0 : Fin 20, ∃ t : Fin cfg1.N, t.val = q0.val :=
  (by decide +kernel : ∀ q0 : Fin 20, ∃ t : Fin grid1.N, t.val = q0.val)

/-- WHAT POINT `t` WRITES BACK is block `t` of the whole-array function of the arrays the region was entered with. -/
theorem flushed1_eq {f : EReal → EReal} (hpay : PayIs f (k1_pay1 (F := Ideal))) (c : Dev nD) (t : Fin cfg1.N) :
    (dat1 V c).flushed 6 t = ((cfg1.win 6).blk t).view.read (Elt Ideal)
      (rows f (V c main_v30) (V c main_v8) (V c main_v20) (V c main_arg5) (V c main_v31) (V c main_arg7)) := by
  show (cfg1.win 6).cut (grid1.coords t) ((dat1 V c).after 6 t) = _
  rw [after1_6]
  unfold out1_6
  rw [View.canon_unit_zero zeros1]
  simp only [View.ld_unit_zero (S := S5000x64) zeros1, View.ld_unit_zero (S := S5000x1) zeros1,
    View.ld_unit_zero (S := S64x64) zeros1, View.ld_unit_zero (S := S1x64) zeros1]
  obtain ⟨e60, e61, e00, e01, e10, e11, e20, e21, e30, e31, e40, e41, e50, e51, ht⟩ := index1 t
  refine funext fun (j : S5000x64.Idx) => ?_
  obtain ⟨p, q, rfl⟩ : ∃ (p : Fin 5000) (q : Fin 64), j = ix2 p q := ⟨j 0, j 1, eq_ix2 j⟩
  have hp : p.val < 5000 := p.isLt
  have hq : q.val < 64 := q.isLt
  let r : Fin 100000 := ⟨t.val * 5000 + p.val, by omega⟩
  have hout : ((cfg1.win 6).blk t).view.emb (ix2 p q) = ix2 r q := by
    funext a; apply Fin.ext
    match a with
    | ⟨0, _⟩ => show win1_6.index t (0 : Fin 2) * 5000 + 1 * p.val = t.val * 5000 + p.val; omega
    | ⟨1, _⟩ => show win1_6.index t (1 : Fin 2) * 64 + 1 * q.val = q.val; omega
  show k1_pay1 (F := Ideal) (iblk1 V c 0 t) (iblk1 V c 1 t) (iblk1 V c 2 t) (iblk1 V c 3 t) (iblk1 V c 5 t) (iblk1 V c 4 t) (ix2 p q)
    = rows f (V c main_v30) (V c main_v8) (V c main_v20) (V c main_arg5) (V c main_v31) (V c main_arg7) (((cfg1.win 6).blk t).view.emb (ix2 p q))
  rw [hout]
  refine block_entry hpay (iblk1 V c 0 t) (iblk1 V c 1 t) (iblk1 V c 2 t) (iblk1 V c 3 t) (iblk1 V c 4 t) (iblk1 V c 5 t)
    (V c main_v30) (V c main_v8) (V c main_v20) (V c main_arg5) (V c main_v31) (V c main_arg7) p q r ?_ ?_ ?_ ?_ ?_ ?_
  · intro k
    have hk : k.val < 64 := k.isLt
    show V c main_v30 (((cfg1.win 0).blk t).view.emb (ix2 p k)) = V c main_v30 (ix2 r k)
    refine congrArg (V c main_v30) ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c main_v8 (((cfg1.win 1).blk t).view.emb (ix2 p (0 : Fin 1))) = V c main_v8 (ix2 r (0 : Fin 1))
    refine congrArg (V c main_v8) ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · intro k
    have hk : k.val < 64 := k.isLt
    show V c main_v20 (((cfg1.win 2).blk t).view.emb (ix2 p k)) = V c main_v20 (ix2 r k)
    refine congrArg (V c main_v20) ?_
    funext a; apply Fin.ext
    match a with
    | ⟨0, _⟩ => show win1_2.index t (0 : Fin 2) * 5000 + 1 * p.val = t.val * 5000 + p.val; omega
    | ⟨1, _⟩ => show win1_2.index t (1 : Fin 2) * 64 + 1 * k.val = k.val; omega
  · intro y
    show V c main_arg5 (((cfg1.win 3).blk t).view.emb y) = V c main_arg5 y
    refine congrArg (V c main_arg5) ?_
    funext a; apply Fin.ext
    match a with
    | ⟨0, _⟩ => show win1_3.index t (0 : Fin 2) * 64 + 1 * (y 0).val = (y 0).val; omega
    | ⟨1, _⟩ => show win1_3.index t (1 : Fin 2) * 64 + 1 * (y 1).val = (y 1).val; omega
  · intro y
    show V c main_v31 (((cfg1.win 4).blk t).view.emb y) = V c main_v31 y
    refine congrArg (V c main_v31) ?_
    funext a; apply Fin.ext
    match a with
    | ⟨0, _⟩ => show win1_4.index t (0 : Fin 2) * 1 + 1 * (y 0).val = (y 0).val; omega
    | ⟨1, _⟩ => show win1_4.index t (1 : Fin 2) * 64 + 1 * (y 1).val = (y 1).val; omega
  · intro y
    show V c main_arg7 (((cfg1.win 5).blk t).view.emb y) = V c main_arg7 y
    refine congrArg (V c main_arg7) ?_
    funext a; apply Fin.ext
    match a with
    | ⟨0, _⟩ => show win1_5.index t (0 : Fin 2) * 64 + 1 * (y 0).val = (y 0).val; omega
    | ⟨1, _⟩ => show win1_5.index t (1 : Fin 2) * 64 + 1 * (y 1).val = (y 1).val; omega

/-- An index of the output array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v32).slice (win1_6.rect t)).set ↔ _
  rw [View.set_slice_whole, Rect.mem_set_unit]
  exact Iff.rfl

/-- THE COVER: row `r` of the output lies in the block of point `r / 5000`. -/
theorem cover1 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ := onto1 ⟨(i 0).val / 5000, by omega⟩
  have ht' : t.val = (i 0).val / 5000 := ht
  obtain ⟨e60, e61, -⟩ := index1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE OUTPUT ARRAY after the region: the whole-array function of the arrays it was entered with. -/
theorem final1 {f : EReal → EReal} (hpay : PayIs f (k1_pay1 (F := Ideal))) (c : Dev nD) :
    (dat1 V c).arrAt 6 cfg1.N = rows f (V c main_v30) (V c main_v8) (V c main_v20) (V c main_arg5) (V c main_v31) (V c main_arg7) :=
  (dat1 V c).arrAt_eq_of_cover 6 _ (fun t _ => flushed1_eq V hpay c t) cover1

end Region1

end Cert.KernelIdeal.Blocks

end
-- ==== Proof.Boundaries.lean ====
/-
  What the two regions are entered with: the buffers at each region's entry, read through the host operations before it.

  The program first takes the edge list apart: its second row, as a column, is the list of destination nodes; its first
  row, with negative entries shifted up by the number of nodes, the list of source nodes. A node's neighbour count is the
  scatter-add of ones at the destinations (`cntVec`, kept as a column `cntCol`); the neighbour sum of a feature array `h`
  is the scatter-add at the destinations of the rows of `h` gathered at the sources (`aggOf h`); a bias vector is recast
  as a one-row matrix (`biasRow`). These are the same operations, on the same index columns, before both regions — the
  first region's `h` is the node features, the second's the first region's output — so they are named once and never
  opened: the scatter and the gather stay the opaque functions the program applies.

  The first region is entered with `aggOf x`, `cntCol`, `x`, the first layer's weights and `biasRow b₁`. Between the
  regions no host operation writes the first region's output, the count column or the index vectors, so the second region is
  entered with `aggOf` of the first region's output, the same `cntCol`, that output, the second layer's weights and
  `biasRow b₂`.
-/
import proofs.«110240_j51092930953818_1_alg».proof.Proof.Gen.KernelIdeal.Frame
import Idealize.ShloMosaic.Lib.StableHlo.Run

set_option maxRecDepth 16384

noncomputable section

namespace Cert.KernelIdeal.Boundaries

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]

/-! ## The shared host chains -/

/-- Row `j` of the edge list as a vector. -/
def edgeRow0 (e : (⟨S2x1280000, .i32⟩ : BufTy).Contents (Elt F)) : (⟨S1280000, .i32⟩ : BufTy).Contents (Elt F) :=
  shapeCast _ (extractStridedSlice S1x1280000 ![0, 0] e slices_S2x1280000_S1x1280000_0_0) shapeCasts_S1x1280000_S1280000
def edgeRow1 (e : (⟨S2x1280000, .i32⟩ : BufTy).Contents (Elt F)) : (⟨S1280000, .i32⟩ : BufTy).Contents (Elt F) :=
  shapeCast _ (extractStridedSlice S1x1280000 ![1, 0] e slices_S2x1280000_S1x1280000_1_0) shapeCasts_S1x1280000_S1280000

/-- The destination nodes, as a column of indices. -/
def dstCol (e : (⟨S2x1280000, .i32⟩ : BufTy).Contents (Elt F)) : (⟨S1280000x1, .i32⟩ : BufTy).Contents (Elt F) :=
  broadcastInDim S1280000x1 ![0] bcast_S1280000_S1280000x1_0 (edgeRow1 e)

/-- The source nodes, a negative entry counted from the end, as a column of indices. -/
def srcCol (e : (⟨S2x1280000, .i32⟩ : BufTy).Contents (Elt F)) : (⟨S1280000x1, .i32⟩ : BufTy).Contents (Elt F) :=
  broadcastInDim S1280000x1 ![0] bcast_S1280000_S1280000x1_0
    (select (cmpi .slt (edgeRow0 e) (broadcastInDim S1280000 ![] bcast_S_S1280000 (constantI S_ 32 0#32)))
      (addi (edgeRow0 e) (broadcastInDim S1280000 ![] bcast_S_S1280000 (constantI S_ 32 100000#32))) (edgeRow0 e))

/-- Each node's number of incoming edges: ones scatter-added at the destinations. -/
def cntVec (e : (⟨S2x1280000, .i32⟩ : BufTy).Contents (Elt F)) : (⟨S100000, .f32⟩ : BufTy).Contents (Elt F) :=
  Host.scatterAdd scatter_S100000_S1280000x1_S1280000_n_0_0_1
    (broadcastInDim S100000 ![] bcast_S_S100000 (constant S_ .f32 0x00000000#32)) (dstCol e)
    (broadcastInDim S1280000 ![] bcast_S_S1280000 (constant S_ .f32 0x3F800000#32))

/-- The counts kept as a column. -/
def cntCol (e : (⟨S2x1280000, .i32⟩ : BufTy).Contents (Elt F)) : (⟨S100000x1, .f32⟩ : BufTy).Contents (Elt F) :=
  broadcastInDim S100000x1 ![0] bcast_S100000_S100000x1_0 (cntVec e)

/-- Each node's sum of its in-neighbours' rows of `h`: the rows gathered at the sources, scatter-added at the destinations. -/
def aggOf (h : (⟨S100000x64, .f32⟩ : BufTy).Contents (Elt F)) (e : (⟨S2x1280000, .i32⟩ : BufTy).Contents (Elt F)) :
    (⟨S100000x64, .f32⟩ : BufTy).Contents (Elt F) :=
  Host.scatterAdd scatter_S100000x64_S1280000x1_S1280000x64_1_0_0_1
    (broadcastInDim S100000x64 ![] bcast_S_S100000x64 (constant S_ .f32 0x00000000#32)) (dstCol e)
    (Host.gather gather_S100000x64_S1280000x1_S1280000x64_1_0_n_n_0_1_164 h (srcCol e))

/-- A bias vector as a one-row matrix. -/
def biasRow (b : (⟨S64, .f32⟩ : BufTy).Contents (Elt F)) : (⟨S1x64, .f32⟩ : BufTy).Contents (Elt F) :=
  shapeCast _ b shapeCasts_S64_S1x64

variable (m : (ℓ : Loc nD τ sig) → Buf (Elt F) ℓ) (ρ : Dev nD → PrngReg)

/-! ## The first region's entry -/

set_option maxHeartbeats 8000000 in
theorem entry0_agg (c : Dev nD) : (V1 m ρ c main_v18 : (⟨S100000x64, .f32⟩ : BufTy).Contents (Elt F))
    = aggOf (m ((c : Thread nD τ).loc main_arg0)) (m ((c : Thread nD τ).loc main_arg1)) := by
  show StableHlo.after hostOps0 (W0 m ρ c) (Proc.devRef .tc main_v18) = _
  after_results_simp <;> rfl

set_option maxHeartbeats 8000000 in
theorem entry0_cnt (c : Dev nD) : (V1 m ρ c main_v8 : (⟨S100000x1, .f32⟩ : BufTy).Contents (Elt F)) = cntCol (m ((c : Thread nD τ).loc main_arg1)) := by
  show StableHlo.after hostOps0 (W0 m ρ c) (Proc.devRef .tc main_v8) = _
  after_results_simp <;> rfl

set_option maxHeartbeats 8000000 in
theorem entry0_bias (c : Dev nD) : (V1 m ρ c main_v19 : (⟨S1x64, .f32⟩ : BufTy).Contents (Elt F)) = biasRow (m ((c : Thread nD τ).loc main_arg3)) := by
  show StableHlo.after hostOps0 (W0 m ρ c) (Proc.devRef .tc main_v19) = _
  after_results_simp <;> rfl

set_option maxHeartbeats 8000000 in
theorem entry0_x (c : Dev nD) : V1 m ρ c main_arg0 = m ((c : Thread nD τ).loc main_arg0) := by
  show StableHlo.after hostOps0 (W0 m ρ c) (Proc.devRef .tc main_arg0) = _
  after_results_simp <;> rfl

set_option maxHeartbeats 8000000 in
theorem entry0_wl (c : Dev nD) : V1 m ρ c main_arg2 = m ((c : Thread nD τ).loc main_arg2) := by
  show StableHlo.after hostOps0 (W0 m ρ c) (Proc.devRef .tc main_arg2) = _
  after_results_simp <;> rfl

set_option maxHeartbeats 8000000 in
theorem entry0_wr (c : Dev nD) : V1 m ρ c main_arg4 = m ((c : Thread nD τ).loc main_arg4) := by
  show StableHlo.after hostOps0 (W0 m ρ c) (Proc.devRef .tc main_arg4) = _
  after_results_simp <;> rfl

set_option maxHeartbeats 8000000 in
theorem entry0_edges (c : Dev nD) : W1 m ρ c (Proc.devRef .tc main_arg1) = m ((c : Thread nD τ).loc main_arg1) := by
  show StableHlo.after hostOps0 (W0 m ρ c) (Proc.devRef .tc main_arg1) = _
  after_results_simp <;> rfl

set_option maxHeartbeats 8000000 in
theorem entry0_row0 (c : Dev nD) : (W1 m ρ c (Proc.devRef .tc main_v1) : (⟨S1280000, .i32⟩ : BufTy).Contents (Elt F)) = edgeRow0 (m ((c : Thread nD τ).loc main_arg1)) := by
  show StableHlo.after hostOps0 (W0 m ρ c) (Proc.devRef .tc main_v1) = _
  after_results_simp <;> rfl

set_option maxHeartbeats 8000000 in
theorem entry0_row1 (c : Dev nD) : (W1 m ρ c (Proc.devRef .tc main_v3) : (⟨S1280000, .i32⟩ : BufTy).Contents (Elt F)) = edgeRow1 (m ((c : Thread nD τ).loc main_arg1)) := by
  show StableHlo.after hostOps0 (W0 m ρ c) (Proc.devRef .tc main_v3) = _
  after_results_simp <;> rfl

/-! ## Between the regions

The first region writes its output array and nothing else: the count column, which it only reads, the index vectors and
the arguments, which it does not touch, are what they were at its entry. -/

/-- The first region's output array, as its grid points' write-backs leave it. -/
theorem mid_hidden (c : Dev nD) : W2 m ρ c (Proc.devRef .tc main_v20) = (dat0 (V1 m ρ) c).arrAt 6 cfg0.N :=
  W2_arr m ρ c 6

theorem mid_row0 (c : Dev nD) : (W2 m ρ c (Proc.devRef .tc main_v1) : (⟨S1280000, .i32⟩ : BufTy).Contents (Elt F)) = edgeRow0 (m ((c : Thread nD τ).loc main_arg1)) :=
  (W2_of_ne m ρ c main_v1 (by decide)).trans (entry0_row0 m ρ c)

theorem mid_row1 (c : Dev nD) : (W2 m ρ c (Proc.devRef .tc main_v3) : (⟨S1280000, .i32⟩ : BufTy).Contents (Elt F)) = edgeRow1 (m ((c : Thread nD τ).loc main_arg1)) :=
  (W2_of_ne m ρ c main_v3 (by decide)).trans (entry0_row1 m ρ c)

theorem mid_cnt (c : Dev nD) : (W2 m ρ c (Proc.devRef .tc main_v8) : (⟨S100000x1, .f32⟩ : BufTy).Contents (Elt F)) = cntCol (m ((c : Thread nD τ).loc main_arg1)) :=
  (W2_arr m ρ c 1).trans (((dat0 (V1 m ρ) c).arrAt_in 1 rfl _).trans ((A_eq0 (V1 m ρ) c 1).trans (entry0_cnt m ρ c)))

set_option maxHeartbeats 8000000 in
theorem mid_wl (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)

set_option maxHeartbeats 8000000 in
theorem mid_b (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

set_option maxHeartbeats 8000000 in
theorem mid_wr (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-! ## The second region's entry -/

set_option maxHeartbeats 8000000 in
/-- The second region's neighbour sums are those of the first region's output, over the same edges. -/
theorem entry1_agg (c : Dev nD) : (V3 m ρ c main_v30 : (⟨S100000x64, .f32⟩ : BufTy).Contents (Elt F))
    = aggOf ((dat0 (V1 m ρ) c).arrAt 6 cfg0.N) (m ((c : Thread nD τ).loc main_arg1)) := by
  show StableHlo.after hostOps1 (W2 m ρ c) (Proc.devRef .tc main_v30) = _
  after_results_simp
  rw [mid_hidden m ρ c, mid_row0 m ρ c, mid_row1 m ρ c]
  rfl

set_option maxHeartbeats 8000000 in
theorem entry1_cnt (c : Dev nD) : (V3 m ρ c main_v8 : (⟨S100000x1, .f32⟩ : BufTy).Contents (Elt F)) = cntCol (m ((c : Thread nD τ).loc main_arg1)) := by
  show StableHlo.after hostOps1 (W2 m ρ c) (Proc.devRef .tc main_v8) = _
  after_results_simp
  exact mid_cnt m ρ c

set_option maxHeartbeats 8000000 in
theorem entry1_x (c : Dev nD) : V3 m ρ c main_v20 = (dat0 (V1 m ρ) c).arrAt 6 cfg0.N := by
  show StableHlo.after hostOps1 (W2 m ρ c) (Proc.devRef .tc main_v20) = _
  after_results_simp
  exact mid_hidden m ρ c

set_option maxHeartbeats 8000000 in
theorem entry1_bias (c : Dev nD) : (V3 m ρ c main_v31 : (⟨S1x64, .f32⟩ : BufTy).Contents (Elt F)) = biasRow (m ((c : Thread nD τ).loc main_arg6)) := by
  show StableHlo.after hostOps1 (W2 m ρ c) (Proc.devRef .tc main_v31) = _
  after_results_simp
  rw [mid_b m ρ c]
  rfl

set_option maxHeartbeats 8000000 in
theorem entry1_wl (c : Dev nD) : V3 m ρ c main_arg5 = m ((c : Thread nD τ).loc main_arg5) := by
  show StableHlo.after hostOps1 (W2 m ρ c) (Proc.devRef .tc main_arg5) = _
  after_results_simp
  exact mid_wl m ρ c

set_option maxHeartbeats 8000000 in
theorem entry1_wr (c : Dev nD) : V3 m ρ c main_arg7 = m ((c : Thread nD τ).loc main_arg7) := by
  show StableHlo.after hostOps1 (W2 m ρ c) (Proc.devRef .tc main_arg7) = _
  after_results_simp
  exact mid_wr m ρ c

end Cert.KernelIdeal.Boundaries

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«110240_j51092930953818_1_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.BodyValue.lean ====
/-
  The value each kernel body stores, read at one entry.

  Both bodies load a block of summed neighbour rows, the column of neighbour counts, a block of the nodes' own rows,
  two square weight matrices and a bias row, and store one block. Entry `(p, q)` of the stored block is

      (Σₖ (agg (p, k) / max (cnt (p, 0)) 1) · Wl (q, k)  +  Σₖ x (p, k) · Wr (q, k))  +  b (0, q),

  and the first body stores the maximum of that number and `0`. This is one entry of `MeanLayer.layer`.

  Why: the count column is compared with `1` entry by entry and repeated across its row, so the divisor at `(p, k)` is
  `max (cnt (p, 0)) 1` whatever `k`; a change of float format is the identity on extended reals; a reshape to the same
  shape is the identity; each matrix product into a zero accumulator is the plain sum of products over the contracted
  axis, and its right operand is a TRANSPOSED weight matrix, whose entry `(k, q)` is the weight matrix's entry
  `(q, k)`; the bias row is repeated down the rows, so it contributes its entry of column `q`. No finiteness is used.
-/
import proofs.«110240_j51092930953818_1_alg».proof.Proof.Gen.KernelIdeal.Skeleton
import proofs.«110240_j51092930953818_1_alg».proof.Proof.MeanLayer
import proofs.«110240_j51092930953818_1_alg».proof.Proof.LibRowsTimes
import proofs.«110240_j51092930953818_1_alg».proof.Proof.LibColumnBroadcast
import Idealize.ShloMosaic.Lib.ValueIdx
import Idealize.ShloMosaic.Lib.ValueLayout
import Idealize.ShloMosaic.Lib.Pipeline.Value

noncomputable section
namespace Cert.BodyValue
open Cert.KernelIdeal Cert.KernelIdeal.Gen Idealize.ShloMosaic Idealize.ShloMosaic.ValueIdx Cert.MeanLayer

/-- A square matrix with its two axes exchanged reads, at `(k, q)`, the matrix at `(q, k)`. -/
theorem transpose_swap_apply {φ : FTy} (w : FVec Ideal S64x64 φ) (h : S64x64.Transposes [1, 0] S64x64) (k q : Fin 64) :
    transpose S64x64 [1, 0] w h (ix2 k q) = w (ix2 q k) :=
  transpose_apply [1, 0] w h (ix2 k q) (ix2 q k) (fun b => match b with
    | ⟨0, _⟩ => rfl
    | ⟨1, _⟩ => rfl)

/-- The body's matrix product into the zero accumulator, at `(p, q)`: row `p` of the left operand against column `q`
    of the right one. -/
theorem product_apply {φ₁ φ₂ : FTy} (x : FVec Ideal S5000x64 φ₁) (w : FVec Ideal S64x64 φ₂) (p : Fin 5000) (q : Fin 64) :
    matmul dot_S5000x64_S64x64_S5000x64_1_0_0_1_n_n none x w (constant S5000x64 .f32 0x00000000#32) (ix2 p q)
      = ∑ k : Fin 64, x (ix2 p k) * w (ix2 k q) :=
  RowsTimes.matmul_zero_apply (M := 5000) (K := 64) (N := 64) dot_S5000x64_S64x64_S5000x64_1_0_0_1_n_n
    rfl rfl rfl rfl rfl rfl rfl rfl none x w p q

/-- The two sums against the transposed weights, plus the bias entry, are the layer's entry: under each sum the
    transposed matrix at `(k, q)` is the weight matrix at `(q, k)`. -/
theorem sums_eq_layer (x0 : FVec Ideal S5000x64 .f32) (x1 : FVec Ideal S5000x1 .f32) (x2 : FVec Ideal S5000x64 .f32)
    (x3 : FVec Ideal S64x64 .f32) (x5 : FVec Ideal S64x64 .f32) (x4 : FVec Ideal S1x64 .f32) (p : Fin 5000) (q : Fin 64) :
    (∑ k : Fin 64, Ideal.div (x0 (ix2 p k)) (max (x1 (ix2 p (0 : Fin 1))) one)
          * transpose S64x64 [1, 0] (truncf .bf16 x3 bitsLt_bf16_f32) transposes_S64x64_p1_0_S64x64 (ix2 k q)
        + ∑ k : Fin 64, x2 (ix2 p k)
          * transpose S64x64 [1, 0] (truncf .bf16 x5 bitsLt_bf16_f32) transposes_S64x64_p1_0_S64x64 (ix2 k q))
        + x4 (ix2 (0 : Fin 1) q)
      = layer (fun r k => x0 (ix2 r k)) (fun r => x1 (ix2 r (0 : Fin 1))) (fun r k => x2 (ix2 r k))
          (fun a k => x3 (ix2 a k)) (fun c => x4 (ix2 (0 : Fin 1) c)) (fun a k => x5 (ix2 a k)) p q := by
  unfold layer
  refine congrArg₂ (· + ·) (congrArg₂ (· + ·) (Finset.sum_congr rfl fun k _ => ?_) (Finset.sum_congr rfl fun k _ => ?_)) rfl
  · exact congrArg (Ideal.div (x0 (ix2 p k)) (max (x1 (ix2 p (0 : Fin 1))) one) * ·)
      (transpose_swap_apply (truncf .bf16 x3 bitsLt_bf16_f32) transposes_S64x64_p1_0_S64x64 k q)
  · exact congrArg (x2 (ix2 p k) * ·)
      (transpose_swap_apply (truncf .bf16 x5 bitsLt_bf16_f32) transposes_S64x64_p1_0_S64x64 k q)

/-- The second body stores the layer's entry. -/
theorem body1_apply (x0 : FVec Ideal S5000x64 .f32) (x1 : FVec Ideal S5000x1 .f32) (x2 : FVec Ideal S5000x64 .f32)
    (x3 : FVec Ideal S64x64 .f32) (x5 : FVec Ideal S64x64 .f32) (x4 : FVec Ideal S1x64 .f32) (p : Fin 5000) (q : Fin 64) :
    k1_pay1 (F := Ideal) x0 x1 x2 x3 x5 x4 (ix2 p q)
      = layer (fun r k => x0 (ix2 r k)) (fun r => x1 (ix2 r (0 : Fin 1))) (fun r k => x2 (ix2 r k))
          (fun a k => x3 (ix2 a k)) (fun c => x4 (ix2 (0 : Fin 1) c)) (fun a k => x5 (ix2 a k)) p q := by
  unfold k1_pay1
  simp only [shapeCast_self, addf_apply, product_apply, truncf_apply, divf_apply, maximumf_apply, broadcast_apply,
    broadcastTo_a1_ab_apply, broadcastTo_1b_ab_apply]
  exact sums_eq_layer x0 x1 x2 x3 x5 x4 p q

/-- The first body stores the maximum of the layer's entry and `0`. -/
theorem body0_apply (x0 : FVec Ideal S5000x64 .f32) (x1 : FVec Ideal S5000x1 .f32) (x2 : FVec Ideal S5000x64 .f32)
    (x3 : FVec Ideal S64x64 .f32) (x5 : FVec Ideal S64x64 .f32) (x4 : FVec Ideal S1x64 .f32) (p : Fin 5000) (q : Fin 64) :
    k0_pay1 (F := Ideal) x0 x1 x2 x3 x5 x4 (ix2 p q)
      = max (layer (fun r k => x0 (ix2 r k)) (fun r => x1 (ix2 r (0 : Fin 1))) (fun r k => x2 (ix2 r k))
          (fun a k => x3 (ix2 a k)) (fun c => x4 (ix2 (0 : Fin 1) c)) (fun a k => x5 (ix2 a k)) p q) zero := by
  unfold k0_pay1
  simp only [shapeCast_self, addf_apply, product_apply, truncf_apply, divf_apply, maximumf_apply, broadcast_apply,
    broadcastTo_a1_ab_apply, broadcastTo_1b_ab_apply]
  exact congrArg (max · zero) (sums_eq_layer x0 x1 x2 x3 x5 x4 p q)

end Cert.BodyValue
end
-- ==== Proof.KernelValue.lean ====
/-
  The kernel program's result as one function of its eight arguments.

  Put together: the first region is entered with the neighbour sums of the node features, the neighbour counts and the
  first layer's parameters, and each of its grid points stores the maximum with 0 of the layer's entries, so it leaves the
  HIDDEN features `hidden`: the first layer of the whole arrays followed by that maximum. The second region is entered
  with the neighbour sums of the hidden features, the same counts, the hidden features and the second layer's parameters,
  and stores the layer's entries as they are, so it leaves `result`: the second layer applied to the hidden features. The
  run ends with the result array holding `result` of the launch contents of the arguments, which are unchanged.
-/
import proofs.«110240_j51092930953818_1_alg».proof.Proof.NamedRun
import proofs.«110240_j51092930953818_1_alg».proof.Proof.Blocks
import proofs.«110240_j51092930953818_1_alg».proof.Proof.Boundaries
import proofs.«110240_j51092930953818_1_alg».proof.Proof.BodyValue

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Cert.KernelIdeal.Blocks Cert.KernelIdeal.Boundaries Cert.MeanLayer

/-- The first body stores the maximum with 0 of the layer's entry. -/
theorem pay0 : PayIs (fun v => max v zero) (k0_pay1 (F := Ideal)) :=
  fun x0 x1 x2 x3 x5 x4 p q => Cert.BodyValue.body0_apply x0 x1 x2 x3 x5 x4 p q

/-- The second body stores the layer's entry. -/
theorem pay1 : PayIs (fun v => v) (k1_pay1 (F := Ideal)) :=
  fun x0 x1 x2 x3 x5 x4 p q => Cert.BodyValue.body1_apply x0 x1 x2 x3 x5 x4 p q

/-- The hidden features: the first layer over the whole arrays, then the maximum with 0. -/
def hidden (x : (⟨S100000x64, .f32⟩ : BufTy).Contents (Elt Ideal)) (e : (⟨S2x1280000, .i32⟩ : BufTy).Contents (Elt Ideal))
    (wl : (⟨S64x64, .f32⟩ : BufTy).Contents (Elt Ideal)) (b : (⟨S64, .f32⟩ : BufTy).Contents (Elt Ideal))
    (wr : (⟨S64x64, .f32⟩ : BufTy).Contents (Elt Ideal)) : (⟨S100000x64, .f32⟩ : BufTy).Contents (Elt Ideal) :=
  rows (fun v => max v zero) (aggOf x e) (cntCol e) x wl (biasRow b) wr

/-- The result: the second layer applied to the hidden features, over the same edges. -/
def result (x : (⟨S100000x64, .f32⟩ : BufTy).Contents (Elt Ideal)) (e : (⟨S2x1280000, .i32⟩ : BufTy).Contents (Elt Ideal))
    (w1l : (⟨S64x64, .f32⟩ : BufTy).Contents (Elt Ideal)) (b1 : (⟨S64, .f32⟩ : BufTy).Contents (Elt Ideal))
    (w1r : (⟨S64x64, .f32⟩ : BufTy).Contents (Elt Ideal)) (w2l : (⟨S64x64, .f32⟩ : BufTy).Contents (Elt Ideal))
    (b2 : (⟨S64, .f32⟩ : BufTy).Contents (Elt Ideal)) (w2r : (⟨S64x64, .f32⟩ : BufTy).Contents (Elt Ideal)) :
    (⟨S100000x64, .f32⟩ : BufTy).Contents (Elt Ideal) :=
  rows (fun v => v) (aggOf (hidden x e w1l b1 w1r) e) (cntCol e) (hidden x e w1l b1 w1r) w2l (biasRow b2) w2r

variable (m : (ℓ : Loc nD τ sig) → Buf (Elt Ideal) ℓ) (ρ : Dev nD → PrngReg)

/-- The first region leaves the hidden features of the launch contents. -/
theorem hidden_eq (c : Dev nD) : ((dat0 (V1 m ρ) c).arrAt 6 cfg0.N : (⟨S100000x64, .f32⟩ : BufTy).Contents (Elt Ideal))
    = hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [final0 (V1 m ρ) pay0 c, entry0_agg m ρ c, entry0_cnt m ρ c, entry0_x m ρ c, entry0_wl m ρ c, entry0_bias m ρ c,
    entry0_wr m ρ c]
  rfl

/-- The last boundary's result array is `result` of the launch contents. -/
theorem result_eq (c : Dev nD) : (W4 m ρ c (Proc.devRef .tc main_v32) : (⟨S100000x64, .f32⟩ : BufTy).Contents (Elt Ideal))
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ?_
  rw [final1 (V3 m ρ) pay1 c, entry1_agg m ρ c, entry1_cnt m ρ c, entry1_x m ρ c, entry1_wl m ρ c, entry1_bias m ρ c,
    entry1_wr m ρ c, hidden_eq m ρ c]
  rfl

/-- THE KERNEL'S RUN, READ: every weakly fair execution terminates without a fault with the result array at `result` of
    the arguments' launch contents and the arguments unchanged. -/
theorem run : θ_run defs (onTc (τ := τ) (main (F := Ideal))) ⟨m, fun _ => 0, ρ⟩ (fun r => ∀ c : Dev nD,
      r.2.mem ((c.tc : Thread nD τ).loc main_v32) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.NamedRun.run m ρ)

end Cert.KernelIdeal.Whole

end
-- ==== Proof.RefLayers.lean ====
/-
  The reference's two layers, read entry by entry on the extended reals.

  The reference forms, for each layer, the neighbours' mean (the aggregated rows divided by the column of counts,
  each count raised to at least one and repeated along its row), multiplies it by the transposed first weight matrix,
  adds the bias row, and only then adds the node's own rows times the transposed second weight matrix. Entry (r, c)
  of a product with a transposed matrix contracts row r of the left factor with ROW c of the weights, so the weights
  are read at (c, k). Adding the bias before the second product or after it gives the same extended real
  (`layer_bias_first`), and that is the only law of arithmetic used. The first layer ends with the maximum with 0.0;
  the second layer takes the first layer's result as the node rows and has no maximum.

  The aggregated sums and the counts are scatter-additions whose target depends on the edge list; they are kept as
  they stand and only read at an index.
-/
import proofs.«110240_j51092930953818_1_alg».proof.Proof.Gen.ReferenceIdeal.Read
import proofs.«110240_j51092930953818_1_alg».proof.Proof.MeanLayer
import Idealize.ShloMosaic.Lib.ValueIdx

noncomputable section
namespace Cert.RefLayers
open Cert.ReferenceIdeal Cert.ReferenceIdeal.Gen Cert.ReferenceIdeal.Read Idealize.ShloMosaic Idealize.ShloMosaic.ValueIdx Cert.MeanLayer

/-! ## First layer -/

/-- The mean at (r, k): the aggregated entry divided by the count of row r raised to at least one. The count column
    is repeated along the row, so the divisor does not depend on k. -/
theorem mean1 (x0 : (⟨S100000x64, .f32⟩ : BufTy).Contents (Elt Ideal)) (x1 : (⟨S2x1280000, .i32⟩ : BufTy).Contents (Elt Ideal))
    (r : Fin 100000) (k : Fin 64) :
    val_main_v22 (F := Ideal) x0 x1 (ix2 r k)
      = Ideal.div (val_main_v13 (F := Ideal) x0 x1 (ix2 r k)) (max (val_main_v17 (F := Ideal) x1 (ix1 r)) one) := by
  have e : idx_main_v20 (idx_main_v21 (ix2 r k)) = ix1 r :=
    funext fun a => Fin.ext (by match a with | ⟨0, _⟩ => rfl)
  rw [val_main_v22_apply, val_main_v21_apply, val_main_v20_apply, val_main_v19_apply, val_main_v18_apply,
    val_main_cst_3_apply, e]
  rfl

/-- The transposed first weight matrix at (k, c) is the matrix at (c, k). -/
theorem wl1 (x2 : (⟨S64x64, .f32⟩ : BufTy).Contents (Elt Ideal)) (k c : Fin 64) :
    val_main_v23 (F := Ideal) x2 (ix2 k c) = x2 (ix2 c k) := by
  have e : idx_main_v23 (ix2 k c) = ix2 c k :=
    funext fun a => Fin.ext (by match a with | ⟨0, _⟩ => rfl | ⟨1, _⟩ => rfl)
  rw [val_main_v23_apply, e]

/-- The transposed second weight matrix at (k, c) is the matrix at (c, k). -/
theorem wr1 (x4 : (⟨S64x64, .f32⟩ : BufTy).Contents (Elt Ideal)) (k c : Fin 64) :
    val_main_v28 (F := Ideal) x4 (ix2 k c) = x4 (ix2 c k) := by
  have e : idx_main_v28 (ix2 k c) = ix2 c k :=
    funext fun a => Fin.ext (by match a with | ⟨0, _⟩ => rfl | ⟨1, _⟩ => rfl)
  rw [val_main_v28_apply, e]

/-- The bias row repeated down the rows: at (r, c) it is the bias at c. -/
theorem bias1 (x3 : (⟨S64, .f32⟩ : BufTy).Contents (Elt Ideal)) (r : Fin 100000) (c : Fin 64) :
    val_main_v26 (F := Ideal) x3 (ix2 r c) = x3 (ix1 c) := by
  have e : idx_main_v25 (idx_main_v26 (ix2 r c)) = ix1 c :=
    funext fun a => Fin.ext (by match a with | ⟨0, _⟩ => rfl)
  rw [val_main_v26_apply, val_main_v25_apply, e]

/-- Entry (r, c) of the hidden features: the first layer's entry, then the maximum with 0.0. -/
theorem hidden_apply (x0 : (⟨S100000x64, .f32⟩ : BufTy).Contents (Elt Ideal)) (x1 : (⟨S2x1280000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (r : Fin 100000) (c : Fin 64) :
    val_main_v31 (F := Ideal) x0 x1 x2 x3 x4 (ix2 r c)
      = max (layer (fun r k => val_main_v13 (F := Ideal) x0 x1 (ix2 r k)) (fun r => val_main_v17 (F := Ideal) x1 (ix1 r))
          (fun r k => x0 (ix2 r k)) (fun a k => x2 (ix2 a k)) (fun c => x3 (ix1 c)) (fun a k => x4 (ix2 a k)) r c) zero := by
  -- the k-th term of either product reads the left factor at (r, k) and the transposed weights at (k, c)
  have el : ∀ k : Fin 64, lidx_main_v24 (ix2 r c) k = ix2 r k := fun k =>
    funext fun a => Fin.ext (by match a with | ⟨0, _⟩ => rfl | ⟨1, _⟩ => rfl)
  have er : ∀ k : Fin 64, ridx_main_v24 (ix2 r c) k = ix2 k c := fun k =>
    funext fun a => Fin.ext (by match a with | ⟨0, _⟩ => rfl | ⟨1, _⟩ => rfl)
  have el' : ∀ k : Fin 64, lidx_main_v29 (ix2 r c) k = ix2 r k := fun k =>
    funext fun a => Fin.ext (by match a with | ⟨0, _⟩ => rfl | ⟨1, _⟩ => rfl)
  have er' : ∀ k : Fin 64, ridx_main_v29 (ix2 r c) k = ix2 k c := fun k =>
    funext fun a => Fin.ext (by match a with | ⟨0, _⟩ => rfl | ⟨1, _⟩ => rfl)
  -- the mean times the first weights
  have h24 : val_main_v24 (F := Ideal) x0 x1 x2 (ix2 r c)
      = ∑ k : Fin 64, Ideal.div (val_main_v13 (F := Ideal) x0 x1 (ix2 r k))
          (max (val_main_v17 (F := Ideal) x1 (ix1 r)) one) * x2 (ix2 c k) := by
    refine (val_main_v24_apply x0 x1 x2 (ix2 r c)).trans (Finset.sum_congr rfl fun k _ => ?_)
    rw [el k, er k, mean1, wl1]
  -- the node's own row times the second weights
  have h29 : val_main_v29 (F := Ideal) x0 x4 (ix2 r c) = ∑ k : Fin 64, x0 (ix2 r k) * x4 (ix2 c k) := by
    refine (val_main_v29_apply x0 x4 (ix2 r c)).trans (Finset.sum_congr rfl fun k _ => ?_)
    rw [el' k, er' k, wr1]
  rw [val_main_v31_apply, val_main_v30_apply, val_main_v27_apply, h24, h29, bias1, val_main_call0_v0_apply,
    val_main_call0_cst_apply]
  -- (first sum + bias) + second sum, under the maximum with 0.0
  exact congrArg (fun t => max t zero)
    (layer_bias_first (fun r k => val_main_v13 (F := Ideal) x0 x1 (ix2 r k)) (fun r => val_main_v17 (F := Ideal) x1 (ix1 r))
      (fun r k => x0 (ix2 r k)) (fun a k => x2 (ix2 a k)) (fun c => x3 (ix1 c)) (fun a k => x4 (ix2 a k)) r c)

/-! ## Second layer -/

/-- The second layer's mean at (r, k): the aggregated hidden entry divided by the count of row r raised to at least one. -/
theorem mean2 (x0 : (⟨S100000x64, .f32⟩ : BufTy).Contents (Elt Ideal)) (x1 : (⟨S2x1280000, .i32⟩ : BufTy).Contents (Elt Ideal))
    (x2 : (⟨S64x64, .f32⟩ : BufTy).Contents (Elt Ideal)) (x3 : (⟨S64, .f32⟩ : BufTy).Contents (Elt Ideal))
    (x4 : (⟨S64x64, .f32⟩ : BufTy).Contents (Elt Ideal)) (r : Fin 100000) (k : Fin 64) :
    val_main_v50 (F := Ideal) x0 x1 x2 x3 x4 (ix2 r k)
      = Ideal.div (val_main_v41 (F := Ideal) x0 x1 x2 x3 x4 (ix2 r k)) (max (val_main_v45 (F := Ideal) x1 (ix1 r)) one) := by
  have e : idx_main_v48 (idx_main_v49 (ix2 r k)) = ix1 r :=
    funext fun a => Fin.ext (by match a with | ⟨0, _⟩ => rfl)
  rw [val_main_v50_apply, val_main_v49_apply, val_main_v48_apply, val_main_v47_apply, val_main_v46_apply,
    val_main_cst_9_apply, e]
  rfl

/-- The transposed first weight matrix of the second layer at (k, c) is the matrix at (c, k). -/
theorem wl2 (x5 : (⟨S64x64, .f32⟩ : BufTy).Contents (Elt Ideal)) (k c : Fin 64) :
    val_main_v51 (F := Ideal) x5 (ix2 k c) = x5 (ix2 c k) := by
  have e : idx_main_v51 (ix2 k c) = ix2 c k :=
    funext fun a => Fin.ext (by match a with | ⟨0, _⟩ => rfl | ⟨1, _⟩ => rfl)
  rw [val_main_v51_apply, e]

/-- The transposed second weight matrix of the second layer at (k, c) is the matrix at (c, k). -/
theorem wr2 (x7 : (⟨S64x64, .f32⟩ : BufTy).Contents (Elt Ideal)) (k c : Fin 64) :
    val_main_v56 (F := Ideal) x7 (ix2 k c) = x7 (ix2 c k) := by
  have e : idx_main_v56 (ix2 k c) = ix2 c k :=
    funext fun a => Fin.ext (by match a with | ⟨0, _⟩ => rfl | ⟨1, _⟩ => rfl)
  rw [val_main_v56_apply, e]

/-- The second bias row repeated down the rows: at (r, c) it is the bias at c. -/
theorem bias2 (x6 : (⟨S64, .f32⟩ : BufTy).Contents (Elt Ideal)) (r : Fin 100000) (c : Fin 64) :
    val_main_v54 (F := Ideal) x6 (ix2 r c) = x6 (ix1 c) := by
  have e : idx_main_v53 (idx_main_v54 (ix2 r c)) = ix1 c :=
    funext fun a => Fin.ext (by match a with | ⟨0, _⟩ => rfl)
  rw [val_main_v54_apply, val_main_v53_apply, e]

/-- Entry (r, c) of the result: the second layer's entry, with the hidden features as the node rows. -/
theorem out_apply (x0 : (⟨S100000x64, .f32⟩ : BufTy).Contents (Elt Ideal)) (x1 : (⟨S2x1280000, .i32⟩ : BufTy).Contents (Elt Ideal))
    (x2 : (⟨S64x64, .f32⟩ : BufTy).Contents (Elt Ideal)) (x3 : (⟨S64, .f32⟩ : BufTy).Contents (Elt Ideal))
    (x4 x5 : (⟨S64x64, .f32⟩ : BufTy).Contents (Elt Ideal)) (x6 : (⟨S64, .f32⟩ : BufTy).Contents (Elt Ideal))
    (x7 : (⟨S64x64, .f32⟩ : BufTy).Contents (Elt Ideal)) (r : Fin 100000) (c : Fin 64) :
    val_main_v58 (F := Ideal) x0 x1 x2 x3 x4 x5 x6 x7 (ix2 r c)
      = layer (fun r k => val_main_v41 (F := Ideal) x0 x1 x2 x3 x4 (ix2 r k)) (fun r => val_main_v45 (F := Ideal) x1 (ix1 r))
          (fun r k => val_main_v31 (F := Ideal) x0 x1 x2 x3 x4 (ix2 r k)) (fun a k => x5 (ix2 a k)) (fun c => x6 (ix1 c))
          (fun a k => x7 (ix2 a k)) r c := by
  have el : ∀ k : Fin 64, lidx_main_v52 (ix2 r c) k = ix2 r k := fun k =>
    funext fun a => Fin.ext (by match a with | ⟨0, _⟩ => rfl | ⟨1, _⟩ => rfl)
  have er : ∀ k : Fin 64, ridx_main_v52 (ix2 r c) k = ix2 k c := fun k =>
    funext fun a => Fin.ext (by match a with | ⟨0, _⟩ => rfl | ⟨1, _⟩ => rfl)
  have el' : ∀ k : Fin 64, lidx_main_v57 (ix2 r c) k = ix2 r k := fun k =>
    funext fun a => Fin.ext (by match a with | ⟨0, _⟩ => rfl | ⟨1, _⟩ => rfl)
  have er' : ∀ k : Fin 64, ridx_main_v57 (ix2 r c) k = ix2 k c := fun k =>
    funext fun a => Fin.ext (by match a with | ⟨0, _⟩ => rfl | ⟨1, _⟩ => rfl)
  -- the mean of the hidden features times the first weights
  have h52 : val_main_v52 (F := Ideal) x0 x1 x2 x3 x4 x5 (ix2 r c)
      = ∑ k : Fin 64, Ideal.div (val_main_v41 (F := Ideal) x0 x1 x2 x3 x4 (ix2 r k))
          (max (val_main_v45 (F := Ideal) x1 (ix1 r)) one) * x5 (ix2 c k) := by
    refine (val_main_v52_apply x0 x1 x2 x3 x4 x5 (ix2 r c)).trans (Finset.sum_congr rfl fun k _ => ?_)
    rw [el k, er k, mean2, wl2]
  -- the node's own hidden row times the second weights
  have h57 : val_main_v57 (F := Ideal) x0 x1 x2 x3 x4 x7 (ix2 r c)
      = ∑ k : Fin 64, val_main_v31 (F := Ideal) x0 x1 x2 x3 x4 (ix2 r k) * x7 (ix2 c k) := by
    refine (val_main_v57_apply x0 x1 x2 x3 x4 x7 (ix2 r c)).trans (Finset.sum_congr rfl fun k _ => ?_)
    rw [el' k, er' k, wr2]
  rw [val_main_v58_apply, val_main_v55_apply, h52, h57, bias2]
  -- (first sum + bias) + second sum
  exact layer_bias_first (fun r k => val_main_v41 (F := Ideal) x0 x1 x2 x3 x4 (ix2 r k))
    (fun r => val_main_v45 (F := Ideal) x1 (ix1 r)) (fun r k => val_main_v31 (F := Ideal) x0 x1 x2 x3 x4 (ix2 r k))
    (fun a k => x5 (ix2 a k)) (fun c => x6 (ix1 c)) (fun a k => x7 (ix2 a k)) r c

end Cert.RefLayers
end
-- ==== Proof.SameFunction.lean ====
/-
  The two programs compute one function of the eight arguments.

  The kernel program's result is `result`: the second layer applied to the hidden features, which are the first layer
  followed by the maximum with 0; the reference's result is its last stage. Entry by entry both are `MeanLayer.layer` of
  the same data:
  * the neighbour sums are, in both programs, the same scatter-add over the same destination column of the same gather
    over the same source column — of the node features in the first layer, of the hidden features in the second — so once
    the hidden features agree the sums agree, as terms, without opening the scatter or the gather;
  * the neighbour counts are the same scatter-add of ones; the kernel keeps them as a column, whose entry `(r, 0)` is the
    count of node `r`;
  * the bias enters the kernel as a one-row matrix, whose entry `(0, c)` is the bias at `c`;
  * the weights are the arguments themselves.
  The reference adds the bias before the second product and the kernel after it: that is inside the two layer lemmas
  (commutativity and associativity of addition on the extended reals), and nothing here needs the inputs to be finite.
-/
import proofs.«110240_j51092930953818_1_alg».proof.Proof.KernelValue
import proofs.«110240_j51092930953818_1_alg».proof.Proof.RefLayers
import Idealize.ShloMosaic.Lib.ValueLayout
import Idealize.ShloMosaic.Lib.Pipeline.Value

noncomputable section

namespace Cert.SameFunction

open Idealize.ShloMosaic Idealize.ShloMosaic.ValueIdx Cert.MeanLayer
open Cert.KernelIdeal (S100000x64 S2x1280000 S64x64 S64 S100000x1 S100000 S1x64)
open Cert.KernelIdeal.Boundaries Cert.KernelIdeal.Whole Cert.KernelIdeal.Blocks
open Cert.ReferenceIdeal.Read (val_main_v13 val_main_v17 val_main_v31 val_main_v41 val_main_v45 val_main_v58)

/-! ## The host chains of the two programs are the same terms -/

/-- The first layer's neighbour sums. -/
theorem agg_first (x0 : (⟨S100000x64, .f32⟩ : BufTy).Contents (Elt Ideal)) (x1 : (⟨S2x1280000, .i32⟩ : BufTy).Contents (Elt Ideal)) :
    aggOf (F := Ideal) x0 x1 = val_main_v13 (F := Ideal) x0 x1 := rfl

/-- The second layer's neighbour sums, of the reference's hidden features. -/
theorem agg_second (x0 : (⟨S100000x64, .f32⟩ : BufTy).Contents (Elt Ideal)) (x1 : (⟨S2x1280000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    aggOf (F := Ideal) (val_main_v31 (F := Ideal) x0 x1 x2 x3 x4) x1 = val_main_v41 (F := Ideal) x0 x1 x2 x3 x4 := rfl

/-- The neighbour counts, which the reference computes once per layer. -/
theorem cnt_first (x1 : (⟨S2x1280000, .i32⟩ : BufTy).Contents (Elt Ideal)) : cntVec (F := Ideal) x1 = val_main_v17 (F := Ideal) x1 := rfl
theorem cnt_second (x1 : (⟨S2x1280000, .i32⟩ : BufTy).Contents (Elt Ideal)) : cntVec (F := Ideal) x1 = val_main_v45 (F := Ideal) x1 := rfl

/-! ## The kernel's column of counts and row of biases, read at an entry -/

/-- The count column's entry of row `r` is node `r`'s count. -/
theorem cntCol_apply (x1 : (⟨S2x1280000, .i32⟩ : BufTy).Contents (Elt Ideal)) (r : Fin 100000) :
    cntCol (F := Ideal) x1 (ix2 r (0 : Fin 1)) = cntVec (F := Ideal) x1 (ix1 r) := by
  unfold cntCol
  generalize cntVec (F := Ideal) x1 = y
  exact broadcastInDim_apply _ _ y (ix2 r (0 : Fin 1)) (ix1 r) (fun a => match a with
    | ⟨0, _⟩ => by show r.val = if (100000 : Nat) = 1 then 0 else r.val; rw [if_neg (by decide)])

/-- The bias row's entry of column `c` is the bias at `c`. -/
theorem biasRow_apply (x3 : (⟨S64, .f32⟩ : BufTy).Contents (Elt Ideal)) (c : Fin 64) : biasRow (F := Ideal) x3 (ix2 (0 : Fin 1) c) = x3 (ix1 c) := by
  unfold biasRow
  exact shapeCast_a_1a_apply x3 _ (0 : Fin 1) c

/-! ## The hidden features and the result -/

/-- The kernel's hidden features are the reference's. -/
theorem hidden_same (x0 : (⟨S100000x64, .f32⟩ : BufTy).Contents (Elt Ideal)) (x1 : (⟨S2x1280000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) :
    hidden x0 x1 x2 x3 x4 = val_main_v31 (F := Ideal) x0 x1 x2 x3 x4 := by
  refine funext fun (i : S100000x64.Idx) => ?_
  obtain ⟨r, c, rfl⟩ : ∃ (r : Fin 100000) (c : Fin 64), i = ix2 r c := ⟨i 0, i 1, eq_ix2 i⟩
  rw [Cert.RefLayers.hidden_apply]
  show max (layer (fun r k => aggOf (F := Ideal) x0 x1 (ix2 r k)) (fun r => cntCol (F := Ideal) x1 (ix2 r (0 : Fin 1)))
      (fun r k => x0 (ix2 r k)) (fun a k => x2 (ix2 a k)) (fun c => biasRow (F := Ideal) x3 (ix2 (0 : Fin 1) c))
      (fun a k => x4 (ix2 a k)) r c) zero = _
  refine congrArg (fun v => max v zero) (layer_ext r c (fun k => congrFun (agg_first x0 x1) (ix2 r k))
    ((cntCol_apply x1 r).trans (congrFun (cnt_first x1) (ix1 r))) (fun k => rfl) (fun k => rfl) (biasRow_apply x3 c)
    (fun k => rfl))

/-- THE TWO RESULTS ARE ONE FUNCTION of the eight arguments. -/
theorem result_same (x0 : (⟨S100000x64, .f32⟩ : BufTy).Contents (Elt Ideal)) (x1 : (⟨S2x1280000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal))
    (x5 : (⟨S64x64, .f32⟩ : BufTy).Contents (Elt Ideal)) (x6 : (⟨S64, .f32⟩ : BufTy).Contents (Elt Ideal)) (x7 : (⟨S64x64, .f32⟩ : BufTy).Contents (Elt Ideal)) :
    result x0 x1 x2 x3 x4 x5 x6 x7 = val_main_v58 (F := Ideal) x0 x1 x2 x3 x4 x5 x6 x7 := by
  refine funext fun (i : S100000x64.Idx) => ?_
  obtain ⟨r, c, rfl⟩ : ∃ (r : Fin 100000) (c : Fin 64), i = ix2 r c := ⟨i 0, i 1, eq_ix2 i⟩
  rw [Cert.RefLayers.out_apply]
  show layer (fun r k => aggOf (F := Ideal) (hidden x0 x1 x2 x3 x4) x1 (ix2 r k))
      (fun r => cntCol (F := Ideal) x1 (ix2 r (0 : Fin 1))) (fun r k => hidden x0 x1 x2 x3 x4 (ix2 r k))
      (fun a k => x5 (ix2 a k)) (fun c => biasRow (F := Ideal) x6 (ix2 (0 : Fin 1) c)) (fun a k => x7 (ix2 a k)) r c = _
  refine layer_ext r c (fun k => ?_) ((cntCol_apply x1 r).trans (congrFun (cnt_second x1) (ix1 r)))
    (fun k => congrFun (hidden_same x0 x1 x2 x3 x4) (ix2 r k)) (fun k => rfl) (biasRow_apply x6 c) (fun k => rfl)
  rw [hidden_same x0 x1 x2 x3 x4]
  exact congrFun (agg_second x0 x1 x2 x3 x4) (ix2 r k)

end Cert.SameFunction

end
-- ==== Proof.lean ====
/-
  A two-layer mean-aggregation graph network, as a tiled kernel program and as a plain host program: they compute the
  same function on the extended reals.

  Each layer maps node features `x` (100000 nodes, 64 features) and an edge list to

      out r c = (Σₖ (agg r k / max (cnt r) 1) · Wl c k  +  Σₖ x r k · Wr c k)  +  b c,

  where `agg r` is the sum of the feature rows of `r`'s in-neighbours and `cnt r` their number; the first layer is followed
  by the maximum with 0 and its output is the second layer's `x`. Both programs compute `agg` and `cnt` by the same
  gather and scatter-add host operations over the same index columns. The kernel program does the rest of each layer in a
  region of 20 grid points, 5000 rows at a time, rounding the factors of its two matrix products to a shorter float
  format; the reference does it with whole-array host operations and adds the bias before the second product.

  On the extended reals a change of float format is the identity and each matrix product is the plain sum of products, so
  an entry of a region's output block is `MeanLayer.layer` of the block's own row (BodyValue); row `p` of block `t` is row
  `5000·t + p` of the array and the 20 blocks tile it, so each region leaves one function of the arrays it was entered
  with (Blocks); those arrays are read through the host operations before the region (Boundaries), and the run ends with
  the result array at `Whole.result` of the arguments (NamedRun, KernelValue). The reference's last stage is `layer` of
  the same data entry by entry (RefLayers); the two orders of adding the bias agree because addition of extended reals is
  commutative and associative, and the shared gather and scatter-add chains are equal as terms (SameFunction). No step
  uses that the inputs are finite.

  The three frame claims are the generated frames of the two kernel programs and the reference's run with its result
  forgotten; the idealization rewrote nothing, so there is nothing to preserve.
-/
import proofs.«110240_j51092930953818_1_alg».proof.Defs
import proofs.«110240_j51092930953818_1_alg».proof.Proof.Gen.Kernel
import proofs.«110240_j51092930953818_1_alg».proof.Proof.Gen.Kernel.Frame
import proofs.«110240_j51092930953818_1_alg».proof.Proof.Gen.KernelIdeal
import proofs.«110240_j51092930953818_1_alg».proof.Proof.Gen.KernelIdeal.Frame
import proofs.«110240_j51092930953818_1_alg».proof.Proof.Gen.ReferenceIdeal
import proofs.«110240_j51092930953818_1_alg».proof.Proof.Gen.Pre_finite_inputs
import proofs.«110240_j51092930953818_1_alg».proof.Proof.Gen.ReferenceIdeal.Run
import proofs.«110240_j51092930953818_1_alg».proof.Proof.Gen.ReferenceIdeal.Read
import proofs.«110240_j51092930953818_1_alg».proof.Proof.KernelValue
import proofs.«110240_j51092930953818_1_alg».proof.Proof.SameFunction
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments both programs end with the result array at `Whole.result` of those
    arguments: the kernel program by its run read block by block, the reference by its run read stage by stage, the two
    being one function (`SameFunction.result_same`). -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.SameFunction.result_same _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
